-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x18496 : Shape := ⟨2, ![32, 18496]⟩
abbrev S4624x18496 : Shape := ⟨2, ![4624, 18496]⟩
abbrev S_ : Shape := ⟨0, ![]⟩

class Facts : Prop where
  bcast_S_S32x18496 : S_.BroadcastsInDim S32x18496 (![] : Fin 0 → Fin S32x18496.rank)
  reducesTo_S32x18496_S_d0_1 : S32x18496.ReducesTo [0, 1] S_
  h_S_ : 0 < S_.numel
  bcast_S_S4624x18496 : S_.BroadcastsInDim S4624x18496 (![] : Fin 0 → Fin S4624x18496.rank)
  reducesTo_S4624x18496_S_d0_1 : S4624x18496.ReducesTo [0, 1] S_

variable [Facts]

def fn {F : FTy → Type} [FloatOps F] (main_arg0 : FVec F S32x18496 .f32) (main_arg1 : FVec F S4624x18496 .f32) (main_arg2 : FVec F S32x18496 .f32) : IVec S_ 1 :=
  let main_v0 : FVec F S32x18496 .f32 := Host.absf main_arg0
  let main_cst : FVec F S_ .f32 := constant S_ .f32 0x7F800000#32
  let main_v1 : FVec F S32x18496 .f32 := broadcastInDim S32x18496 ![] bcast_S_S32x18496 main_cst
  let main_v2 : IVec S32x18496 1 := cmpf .olt main_v0 main_v1
  let main_c : IVec S_ 1 := constantI S_ 1 1#1
  let main_v3 : IVec S_ 1 := (fun x v => Host.reduce IntOp.andi x v reducesTo_S32x18496_S_d0_1 h_S_) main_v2 main_c
  let main_v4 : FVec F S4624x18496 .f32 := Host.absf main_arg1
  let main_cst_0 : FVec F S_ .f32 := constant S_ .f32 0x7F800000#32
  let main_v5 : FVec F S4624x18496 .f32 := broadcastInDim S4624x18496 ![] bcast_S_S4624x18496 main_cst_0
  let main_v6 : IVec S4624x18496 1 := cmpf .olt main_v4 main_v5
  let main_c_1 : IVec S_ 1 := constantI S_ 1 1#1
  let main_v7 : IVec S_ 1 := (fun x v => Host.reduce IntOp.andi x v reducesTo_S4624x18496_S_d0_1 h_S_) main_v6 main_c_1
  let main_v8 : IVec S_ 1 := andi main_v3 main_v7
  let main_v9 : FVec F S32x18496 .f32 := Host.absf main_arg2
  let main_cst_2 : FVec F S_ .f32 := constant S_ .f32 0x7F800000#32
  let main_v10 : FVec F S32x18496 .f32 := broadcastInDim S32x18496 ![] bcast_S_S32x18496 main_cst_2
  let main_v11 : IVec S32x18496 1 := cmpf .olt main_v9 main_v10
  let main_c_3 : IVec S_ 1 := constantI S_ 1 1#1
  let main_v12 : IVec S_ 1 := (fun x v => Host.reduce IntOp.andi x v reducesTo_S32x18496_S_d0_1 h_S_) main_v11 main_c_3
  let main_v13 : IVec S_ 1 := andi main_v8 main_v12
  main_v13
-- ==== Kernel.lean ====
abbrev S32x18496 : Shape := ⟨2, ![32, 18496]⟩
abbrev S4624x18496 : Shape := ⟨2, ![4624, 18496]⟩
abbrev S32x4624 : Shape := ⟨2, ![32, 4624]⟩
abbrev S128x18496 : Shape := ⟨2, ![128, 18496]⟩
abbrev S32x128 : Shape := ⟨2, ![32, 128]⟩

abbrev nBuf : Space → Nat
  | .hbm => 4
  | .vmem => 6
  | .smem => 0
  | _ => 0

abbrev bufTy : (tb : Table) → Fin (tcTables nBuf tb) → BufTy
  | .hbm, ⟨0, _⟩ => ⟨S32x18496, .f32⟩
  | .hbm, ⟨1, _⟩ => ⟨S4624x18496, .f32⟩
  | .hbm, ⟨2, _⟩ => ⟨S32x18496, .f32⟩
  | .hbm, ⟨3, _⟩ => ⟨S32x4624, .f32⟩
  | .local _ .vmem, ⟨0, _⟩ => ⟨S32x18496, .f32⟩
  | .local _ .vmem, ⟨1, _⟩ => ⟨S32x18496, .f32⟩
  | .local _ .vmem, ⟨2, _⟩ => ⟨S128x18496, .f32⟩
  | .local _ .vmem, ⟨3, _⟩ => ⟨S128x18496, .f32⟩
  | .local _ .vmem, ⟨4, _⟩ => ⟨S32x128, .f32⟩
  | .local _ .vmem, ⟨5, _⟩ => ⟨S32x128, .f32⟩
  | _, _ => ⟨S32x18496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x18496 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x18496 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x18496 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x18496_S32x18496_0_0 : ∀ a, (![0, 0] : Fin 2 → Nat) a + S32x18496.size a ≤ S32x18496.size a
  h_S32x18496 : 0 < S32x18496.numel
  bitsLt_bf16_f32 : FTy.bits .bf16 < FTy.bits .f32
  inb_S128x18496_S128x18496_0_0 : ∀ a, (![0, 0] : Fin 2 → Nat) a + S128x18496.size a ≤ S128x18496.size a
  h_S128x18496 : 0 < S128x18496.numel
  inb_S32x128_S32x128_0_0 : ∀ a, (![0, 0] : Fin 2 → Nat) a + S32x128.size a ≤ S32x128.size a
  h_S32x128 : 0 < S32x128.numel
  dot_S32x18496_S128x18496_S32x128_1_1_0_0_n_n_wf : DotDims.WF S32x18496 S128x18496 S32x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x18496.size a ≤ S32x18496.size a
  hwx0_0 : ∀ i : grid0.Coords, EltTy.bits .f32 = 32 ∨ (Rect.block (s := S32x18496) S32x18496.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x18496.size a ≤ S32x18496.size a
  hwx0_1 : ∀ i : grid0.Coords, EltTy.bits .f32 = 32 ∨ (Rect.block (s := S32x18496) S32x18496.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S128x18496.size a < S4624x18496.size a
  hwx0_2 : ∀ i : grid0.Coords, EltTy.bits .f32 = 32 ∨ (Rect.unit (s := S4624x18496) (fun a => cc0_transform_2 i a * S128x18496.size a) (fun a => (Pipeline.Clip.of (cc0_transform_2 i a) (S128x18496.size a) (S4624x18496.size a)).extent (S128x18496.size a)) fun a => Pipeline.Clip.inb (Pipeline.Clip.ok_of (hstart0_2 i a))).WholeWords (EltTy.packing .f32)
  hwxs0_2 : ∀ i : grid0.Coords, EltTy.bits .f32 = 32 ∨ (Rect.unit (s := S128x18496) (fun _ => 0) (fun a => (Pipeline.Clip.of (cc0_transform_2 i a) (S128x18496.size a) (S4624x18496.size a)).extent (S128x18496.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x128.size a < S32x4624.size a
  hwx0_3 : ∀ i : grid0.Coords, EltTy.bits .f32 = 32 ∨ (Rect.unit (s := S32x4624) (fun a => cc0_transform_3 i a * S32x128.size a) (fun a => (Pipeline.Clip.of (cc0_transform_3 i a) (S32x128.size a) (S32x4624.size a)).extent (S32x128.size a)) fun a => Pipeline.Clip.inb (Pipeline.Clip.ok_of (hstart0_3 i a))).WholeWords (EltTy.packing .f32)
  hwxs0_3 : ∀ i : grid0.Coords, EltTy.bits .f32 = 32 ∨ (Rect.unit (s := S32x128) (fun _ => 0) (fun a => (Pipeline.Clip.of (cc0_transform_3 i a) (S32x128.size a) (S32x4624.size a)).extent (S32x128.size a)) fun a => (Nat.zero_add _).trans_le (Pipeline.Clip.extent_le (Pipeline.Clip.ok_of (hstart0_3 i a)))).WholeWords (EltTy.packing .f32)

variable [Facts₀]

def dot_S32x18496_S128x18496_S32x128_1_1_0_0_n_n : DotDims S32x18496 S128x18496 S32x128 where
  lhsContracting := [1]
  rhsContracting := [1]
  lhsNonContracting := [0]
  rhsNonContracting := [0]
  lhsBatch := []
  rhsBatch := []
  wf := dot_S32x18496_S128x18496_S32x128_1_1_0_0_n_n_wf

abbrev win0_0 : Pipeline.Window sig grid0 :=
  Pipeline.Window.ofSpec (Memref.whole main_arg0) S32x18496.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x18496.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S128x18496.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S32x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x18496 : Shape := ⟨2, ![32, 18496]⟩
abbrev S4624x18496 : Shape := ⟨2, ![4624, 18496]⟩
abbrev S18496x4624 : Shape := ⟨2, ![18496, 4624]⟩
abbrev S32x4624 : Shape := ⟨2, ![32, 4624]⟩

abbrev nBuf : Space → Nat
  | .hbm => 6
  | .vmem => 0
  | .smem => 0
  | _ => 0

abbrev bufTy : (tb : Table) → Fin (tcTables nBuf tb) → BufTy
  | .hbm, ⟨0, _⟩ => ⟨S32x18496, .f32⟩
  | .hbm, ⟨1, _⟩ => ⟨S4624x18496, .f32⟩
  | .hbm, ⟨2, _⟩ => ⟨S32x18496, .f32⟩
  | .hbm, ⟨3, _⟩ => ⟨S32x18496, .f32⟩
  | .hbm, ⟨4, _⟩ => ⟨S18496x4624, .f32⟩
  | .hbm, ⟨5, _⟩ => ⟨S32x4624, .f32⟩
  | _, _ => ⟨S32x18496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S4624x18496_S18496x4624_1_0 : S4624x18496.Transposes [1, 0] S18496x4624
  dot_S32x18496_S18496x4624_S32x4624_1_0_0_1_n_n_wf : DotDims.WF S32x18496 S18496x4624 S32x4624 [1] [0] [0] [1] [] []

variable [Facts₀]

def dot_S32x18496_S18496x4624_S32x4624_1_0_0_1_n_n : DotDims S32x18496 S18496x4624 S32x4624 where
  lhsContracting := [1]
  rhsContracting := [0]
  lhsNonContracting := [0]
  rhsNonContracting := [1]
  lhsBatch := []
  rhsBatch := []
  wf := dot_S32x18496_S18496x4624_S32x4624_1_0_0_1_n_n_wf

class Facts : Prop extends Facts₀ where

variable [Facts]
-- ==== Proof.BitsBody.lean ====
/-
  The body of the kernel as printed, at one grid point, as a triple at any float instance (read at the word-level one).

  The body loads the whole block of the inputs' product operands (the activations x and the mask, each
  32 × 18496), the whole staged block of the weight (128 × 18496), forms the row-by-row inner products
  (x · mask) · wᵀ into a 32 × 128 tile, and stores that tile over the whole output staging block.
  So: the three input staging buffers are left as found, and the output staging buffer ends holding
  the product tile of what the three inputs held — whatever they held, and whatever the output held.
-/
import proofs.«106692_j53042846105941_1_alg».proof.Proof.Gen.Kernel.Frame
import proofs.«106692_j53042846105941_1_alg».proof.Proof.Gen.Kernel.Skeleton
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel names no variant. -/
abbrev 𝒱₀ : Variants := Variants.none

-- One choice of the four staging buffers: every access is at offset zero over the buffer's own extents, so
-- a load reads the contents and the unmasked store replaces them.
set_option hygiene false in
local macro "body_case" b0:ident b1:ident b2:ident b3:ident : tactic => `(tactic| (
    have hr0 : (Memref.whole $b0 : Memref sig .tc _ _ _).view.readAt (Elt F) (Rect.unit (s := S32x18496) ![0, 0] S32x18496.size
        inb_S32x18496_S32x18496_0_0).toLoadRect = id := funext (Memref.readAt_unit_zero (Elt F) $b0 hz _)
    have hr1 : (Memref.whole $b1 : Memref sig .tc _ _ _).view.readAt (Elt F) (Rect.unit (s := S32x18496) ![0, 0] S32x18496.size
        inb_S32x18496_S32x18496_0_0).toLoadRect = id := funext (Memref.readAt_unit_zero (Elt F) $b1 hz _)
    have hr2 : (Memref.whole $b2 : Memref sig .tc _ _ _).view.readAt (Elt F) (Rect.unit (s := S128x18496) ![0, 0] S128x18496.size
        inb_S128x18496_S128x18496_0_0).toLoadRect = id := funext (Memref.readAt_unit_zero (Elt F) $b2 hz _)
    have hw3 : ∀ f w, (((Memref.whole $b3).access (Rect.unit (s := S32x128) ![0, 0] S32x128.size inb_S32x128_S32x128_0_0)) :
        View sig .tc _ _ _).write (Elt F) f w Finset.univ = w := Memref.write_access_unit_zero_univ (Elt F) $b3 hz _
    simp only [owns_whole_eq, cc0__avgpool_toeplitz_kernel_eq_skeleton]; unfold cc0__avgpool_toeplitz_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3))

/-- The body on staging buffers `s0`, `s1` (the two resident inputs' only buffers), `s2` (either of the weight's two)
    and `s3` (either of the output's two): the inputs are left holding what they held, and the output buffer ends
    holding the product tile of the three. -/
theorem sound_body (c : Dev nD) (E : Set ℕ) (i : grid0.Coords) (s0 : Fin 1) (s1 : Fin 1) (s2 : Fin 2) (s3 : Fin 2)
    (X0 X1 : S32x18496.Idx → Elt F .f32) (X2 : S128x18496.Idx → Elt F .f32) (X3 : S32x128.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__avgpool_toeplitz_kernel i (stage0_0 s0) (hstage0_0 s0) (stage0_1 s1) (hstage0_1 s1)
            (stage0_2 s2) (hstage0_2 s2) (stage0_3 s3) (hstage0_3 s3)) K := by
  have hz : (![0, 0] : Fin 2 → Nat) = fun _ => 0 := funext fun a => by fin_cases a <;> rfl
  fin_cases s0 <;> fin_cases s1 <;> fin_cases s2 <;> fin_cases s3
  · body_case cc0_stg0_0 cc0_stg1_0 cc0_stg2_0 cc0_stg3_0
  · body_case cc0_stg0_0 cc0_stg1_0 cc0_stg2_0 cc0_stg3_1
  · body_case cc0_stg0_0 cc0_stg1_0 cc0_stg2_1 cc0_stg3_0
  · body_case cc0_stg0_0 cc0_stg1_0 cc0_stg2_1 cc0_stg3_1

end Cert.Kernel.Hand

end
-- ==== Proof.BitsFrame.lean ====
/-
  The frame of the kernel as printed, at the word-level instance: it runs to the end, faults nowhere, and leaves its
  three argument arrays as they were.

  Nothing about what the body computes is needed for this, and at the word-level instance nothing could be said of
  the last point's tile in any case: there the staged weight block's rows past the array's end hold words nothing
  names, and the matrix unit's result is not known to be a row-by-row function of its right operand. So the proof
  data here constrains nothing: each staging buffer is handed back at SOME contents. The body has no check, branch
  or index that reads a loaded word, so it runs whatever the buffers hold; and an input array is never written by the
  pipeline, so it ends as it began.
-/
import proofs.«106692_j53042846105941_1_alg».proof.Proof.BitsBody

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays at their contents at the region's entry; of what the body leaves in any staging buffer,
    nothing is asked. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, whatever the four current staging buffers hold, the body runs and hands each back at some
    contents. -/
theorem body_obligation (c : Dev nD) : (rdats m c).BodyObligation (defs₀ (F := F)) 𝒱₀ () Set.univ := fun t Y _ => by
  rw [bigSep_W0, bigSep_W0]
  rw [show (rdats m c).Φ t.succ = (rdats m c).Φ t.castSucc from rfl,
    show (rdats m c).owesAt () t.succ = (rdats m c).owesAt () t.castSucc from rfl]
  iintro ⟨HΦ, Ho, H0, H1, H2, H3⟩
  iapply (sound_body (F := F) c Set.univ (grid0.coords t) (cfg0.slots t 0) (cfg0.slots t 1) (cfg0.slots t 2) (cfg0.slots t 3)
    (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  · iexists k0_pay1 (Y 0) (Y 1) (Y 2); isplitr; · ipureintro; trivial
    iexact H3

/-- Every weakly fair execution of @main terminates, nothing faulting; every array of the kernel ends at contents the
    data allows, every other buffer untouched. -/
theorem run_main : θ_run defs (onTc (τ := τ) (main (F := F))) (s₀ m ρ) (RDat.FramePost cfg0 (rdats m) (V m)) :=
  RDat.θ_run_frame cfgs 0 launch0 defs₀ 𝒱₀ (rdats m) m ρ main
    (hbody := body_obligation m) (hshare := fun c => (rdats m c).share_full fun _ => rfl) (howed := fun _ _ => rfl)
    (V := V m) (hmain := hmain m 𝒱₀) (hA := fun _ _ => rfl) (hΦ := fun _ _ => rfl)

/-- The three argument arrays are inputs of the pipeline, never written: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    have h2 := (h c).1 2
    rw [(rdats m c).ArrAt_in 0 rfl] at h0
    rw [(rdats m c).ArrAt_in 1 rfl] at h1
    rw [(rdats m c).ArrAt_in 2 rfl] at h2
    exact ⟨h0.trans (V_main_arg0 m c), h2.trans (V_main_arg1 m c), h1.trans (V_main_arg2 m c)⟩) (run_main m ρ)

end Cert.Kernel.Hand

end
-- ==== Proof.IdealBody.lean ====
/-
  The body of the idealized kernel at one grid point, as a triple at any float instance.

  The body loads the whole block of the inputs' product operands (the activations x and the mask, each
  32 × 18496), the whole staged block of the weight (128 × 18496), forms the row-by-row inner products
  (x · mask) · wᵀ into a 32 × 128 tile, and stores that tile over the whole output staging block.
  So: the three input staging buffers are left as found, and the output staging buffer ends holding
  the product tile of what the three inputs held — whatever they held, and whatever the output held.
-/
import proofs.«106692_j53042846105941_1_alg».proof.Proof.Gen.KernelIdeal.Frame
import proofs.«106692_j53042846105941_1_alg».proof.Proof.Gen.KernelIdeal.Skeleton
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel names no variant. -/
abbrev 𝒱₀ : Variants := Variants.none

-- One choice of the four staging buffers: every access is at offset zero over the buffer's own extents, so
-- a load reads the contents and the unmasked store replaces them.
set_option hygiene false in
local macro "body_case" b0:ident b1:ident b2:ident b3:ident : tactic => `(tactic| (
    have hr0 : (Memref.whole $b0 : Memref sig .tc _ _ _).view.readAt (Elt F) (Rect.unit (s := S32x18496) ![0, 0] S32x18496.size
        inb_S32x18496_S32x18496_0_0).toLoadRect = id := funext (Memref.readAt_unit_zero (Elt F) $b0 hz _)
    have hr1 : (Memref.whole $b1 : Memref sig .tc _ _ _).view.readAt (Elt F) (Rect.unit (s := S32x18496) ![0, 0] S32x18496.size
        inb_S32x18496_S32x18496_0_0).toLoadRect = id := funext (Memref.readAt_unit_zero (Elt F) $b1 hz _)
    have hr2 : (Memref.whole $b2 : Memref sig .tc _ _ _).view.readAt (Elt F) (Rect.unit (s := S128x18496) ![0, 0] S128x18496.size
        inb_S128x18496_S128x18496_0_0).toLoadRect = id := funext (Memref.readAt_unit_zero (Elt F) $b2 hz _)
    have hw3 : ∀ f w, (((Memref.whole $b3).access (Rect.unit (s := S32x128) ![0, 0] S32x128.size inb_S32x128_S32x128_0_0)) :
        View sig .tc _ _ _).write (Elt F) f w Finset.univ = w := Memref.write_access_unit_zero_univ (Elt F) $b3 hz _
    simp only [owns_whole_eq, cc0__avgpool_toeplitz_kernel_eq_skeleton]; unfold cc0__avgpool_toeplitz_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3))

/-- The body on staging buffers `s0`, `s1` (the two resident inputs' only buffers), `s2` (either of the weight's two)
    and `s3` (either of the output's two): the inputs are left holding what they held, and the output buffer ends
    holding the product tile of the three. -/
theorem sound_body (c : Dev nD) (E : Set ℕ) (i : grid0.Coords) (s0 : Fin 1) (s1 : Fin 1) (s2 : Fin 2) (s3 : Fin 2)
    (X0 X1 : S32x18496.Idx → Elt F .f32) (X2 : S128x18496.Idx → Elt F .f32) (X3 : S32x128.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__avgpool_toeplitz_kernel i (stage0_0 s0) (hstage0_0 s0) (stage0_1 s1) (hstage0_1 s1)
            (stage0_2 s2) (hstage0_2 s2) (stage0_3 s3) (hstage0_3 s3)) K := by
  have hz : (![0, 0] : Fin 2 → Nat) = fun _ => 0 := funext fun a => by fin_cases a <;> rfl
  fin_cases s0 <;> fin_cases s1 <;> fin_cases s2 <;> fin_cases s3
  · body_case cc0_stg0_0 cc0_stg1_0 cc0_stg2_0 cc0_stg3_0
  · body_case cc0_stg0_0 cc0_stg1_0 cc0_stg2_0 cc0_stg3_1
  · body_case cc0_stg0_0 cc0_stg1_0 cc0_stg2_1 cc0_stg3_0
  · body_case cc0_stg0_0 cc0_stg1_0 cc0_stg2_1 cc0_stg3_1

end Cert.KernelIdeal.Hand

end
-- ==== Proof.IdealPay.lean ====
/-
  The idealized kernel's payload read at one position of the output tile, over the extended reals.

  At the ideal instance a change of float format is the identity and the matrix product into the zero
  accumulator is the plain sum of products over the contracted axis. So the tile's entry at row b and column n
  is  Σ_k (x[b,k] · mask[b,k]) · w[n,k]:  it reads row b of the two resident inputs and row n — only row n — of
  the weight block.
-/
import proofs.«106692_j53042846105941_1_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen
open Idealize.ShloMosaic

/-- Row `b` of a resident input at contraction position `k`, for the tile position `jj = (b, n)`. -/
abbrev lrow (jj : S32x128.Idx) (k : Fin 18496) : S32x18496.Idx := fun a => match a with
  | ⟨0, _⟩ => ⟨(jj 0).val, (jj 0).isLt⟩
  | ⟨1, _⟩ => ⟨k.val, k.isLt⟩

/-- Row `n` of the staged weight block at contraction position `k`, for the tile position `jj = (b, n)`. -/
abbrev rrow (jj : S32x128.Idx) (k : Fin 18496) : S128x18496.Idx := fun a => match a with
  | ⟨0, _⟩ => ⟨(jj 1).val, (jj 1).isLt⟩
  | ⟨1, _⟩ => ⟨k.val, k.isLt⟩

theorem lhs_ax0 (i : S32x128.Idx) (q : dot_S32x18496_S128x18496_S32x128_1_1_0_0_n_n.contr.Idx) : (dot_S32x18496_S128x18496_S32x128_1_1_0_0_n_n.lhsIdx i q 0).val = (i 0).val := by
  unfold DotDims.lhsIdx
  rw [dif_neg (show ¬(0 : Fin S32x18496.rank) ∈ dot_S32x18496_S128x18496_S32x128_1_1_0_0_n_n.lhsBatch by decide),
    dif_pos (show (0 : Fin S32x18496.rank) ∈ dot_S32x18496_S128x18496_S32x128_1_1_0_0_n_n.lhsNonContracting by decide)]
  rfl
theorem lhs_ax1 (i : S32x128.Idx) (q : dot_S32x18496_S128x18496_S32x128_1_1_0_0_n_n.contr.Idx) : (dot_S32x18496_S128x18496_S32x128_1_1_0_0_n_n.lhsIdx i q 1).val = (q ⟨0, by decide⟩).val :=
  dot_S32x18496_S128x18496_S32x128_1_1_0_0_n_n.lhsIdx_val_of_single rfl i q
theorem rhs_ax0 (i : S32x128.Idx) (q : dot_S32x18496_S128x18496_S32x128_1_1_0_0_n_n.contr.Idx) : (dot_S32x18496_S128x18496_S32x128_1_1_0_0_n_n.rhsIdx i q 0).val = (i 1).val := by
  unfold DotDims.rhsIdx
  rw [dif_neg (show ¬(0 : Fin S128x18496.rank) ∈ dot_S32x18496_S128x18496_S32x128_1_1_0_0_n_n.rhsBatch by decide),
    dif_pos (show (0 : Fin S128x18496.rank) ∈ dot_S32x18496_S128x18496_S32x128_1_1_0_0_n_n.rhsNonContracting by decide)]
  rfl
theorem rhs_ax1 (i : S32x128.Idx) (q : dot_S32x18496_S128x18496_S32x128_1_1_0_0_n_n.contr.Idx) : (dot_S32x18496_S128x18496_S32x128_1_1_0_0_n_n.rhsIdx i q 1).val = (q ⟨0, by decide⟩).val :=
  dot_S32x18496_S128x18496_S32x128_1_1_0_0_n_n.rhsIdx_val_of_single rfl i q

/-- The tile at `jj = (b, n)` is the sum over `k` of (x[b,k] · mask[b,k]) · w[n,k]. -/
theorem pay_apply (v0 v1 : Vec Ideal S32x18496 .f32) (v4 : Vec Ideal S128x18496 .f32) (jj : S32x128.Idx) :
    k0_pay1 (F := Ideal) v0 v1 v4 jj = ∑ k : Fin 18496, (v0 (lrow jj k) * v1 (lrow jj k)) * v4 (rrow jj k) := by
  unfold k0_pay1
  simp only [matmul]
  rw [Ideal.matmul_constant_zero_apply, ← Equiv.sum_comp (ValueIdx.contrEquiv1 dot_S32x18496_S128x18496_S32x128_1_1_0_0_n_n 18496 rfl rfl).symm]
  refine Finset.sum_congr rfl fun k _ => ?_
  have hk := ValueIdx.contrEquiv1_symm_val dot_S32x18496_S128x18496_S32x128_1_1_0_0_n_n 18496 rfl rfl k
  have el : dot_S32x18496_S128x18496_S32x128_1_1_0_0_n_n.lhsIdx jj ((ValueIdx.contrEquiv1 dot_S32x18496_S128x18496_S32x128_1_1_0_0_n_n 18496 rfl rfl).symm k) = lrow jj k := funext fun a => Fin.ext (by
    match a with
    | ⟨0, _⟩ => exact lhs_ax0 _ _
    | ⟨1, _⟩ => exact (lhs_ax1 _ _).trans hk)
  have er : dot_S32x18496_S128x18496_S32x128_1_1_0_0_n_n.rhsIdx jj ((ValueIdx.contrEquiv1 dot_S32x18496_S128x18496_S32x128_1_1_0_0_n_n 18496 rfl rfl).symm k) = rrow jj k := funext fun a => Fin.ext (by
    match a with
    | ⟨0, _⟩ => exact rhs_ax0 _ _
    | ⟨1, _⟩ => exact (rhs_ax1 _ _).trans hk)
  rw [el, er]
  rfl

end Cert.KernelIdeal.Hand

end
-- ==== Proof.IdealRun.lean ====
/-
  The idealized kernel's run: the proof data, the body obligation at every grid point, the launch, and the output
  array after the run.

  The grid has 37 points. Point t stages the weight's rows 128·t ‥ 128·t+127 and writes the output's columns of the
  same numbers; 37 · 128 = 4736 exceeds 4624, so at the last point only 16 rows (columns) lie inside the arrays.
  There the fetch leaves the staging rows past the weight's end at words nothing names, the body multiplies them
  like any others, and the write-back moves only the 16 columns inside the output.

  What makes this harmless over the extended reals: entry (b, n) of the tile is Σ_k (x[b,k]·mask[b,k])·w_blk[n,k],
  a function of row n of the staged weight block only. Column n is written back exactly when row n was fetched
  (the two windows are cut at the same count), so every written entry is
      out[b, 128·t + n] = Σ_k (x[b,k] · mask[b,k]) · w[128·t + n, k],
  the specification `G` below, whatever fills the tail. The blocks' columns inside the array cover all 4624
  columns, so the output array ends at `G` of the three arguments.
-/
import proofs.«106692_j53042846105941_1_alg».proof.Proof.IdealBody
import proofs.«106692_j53042846105941_1_alg».proof.Proof.IdealPay
import Idealize.ShloMosaic.Lib.Pipeline.Value

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-! ## The specification -/

/-- Row `b` of an activation-shaped array at contraction position `k`, for the output index `i = (b, n)`. -/
abbrev xrow (i : S32x4624.Idx) (k : Fin 18496) : S32x18496.Idx := fun a => match a with
  | ⟨0, _⟩ => ⟨(i 0).val, (i 0).isLt⟩
  | ⟨1, _⟩ => ⟨k.val, k.isLt⟩

/-- Row `n` of the weight at contraction position `k`, for the output index `i = (b, n)`. -/
abbrev wrow (i : S32x4624.Idx) (k : Fin 18496) : S4624x18496.Idx := fun a => match a with
  | ⟨0, _⟩ => ⟨(i 1).val, (i 1).isLt⟩
  | ⟨1, _⟩ => ⟨k.val, k.isLt⟩

/-- out[b, n] = Σ_k (x[b,k] · mask[b,k]) · w[n,k]. -/
def G (x mk : (⟨S32x18496, .f32⟩ : BufTy).Contents (Elt Ideal)) (w : (⟨S4624x18496, .f32⟩ : BufTy).Contents (Elt Ideal)) :
    (⟨S32x4624, .f32⟩ : BufTy).Contents (Elt Ideal) :=
  fun i => ∑ k : Fin 18496, (x (xrow i k) * mk (xrow i k)) * w (wrow i k)

/-- The specification of the three argument arrays as the region finds them (the mask is the kernel's third
    argument and its second window). -/
@[irreducible] def Gout (c : Dev nD) : Buf (Elt Ideal) ((c : Thread nD τ).loc main_v0) :=
  G (V m c main_arg0) (V m c main_arg2) (V m c main_arg1)

/-- A block of the output array read at a position is the array at the position's place in the array. -/
theorem read_out {c : Dev nD} (A : Buf (Elt Ideal) ((c : Thread nD τ).loc main_v0)) (t : Fin cfg0.N) (j : (win0_3.xblock (grid0.coords t)).Idx) :
    (win0_3.blk t).view.read (Elt Ideal) A j = A ((win0_3.blk t).view.emb j) := rfl

/-- The weight's staging contents after the body at point `t`: its block on the rows inside the array, zero past them
    (a filler nothing reads). -/
def wleft (c : Dev nD) (t : Fin cfg0.N) : S128x18496.Idx → Elt Ideal .f32 :=
  win0_2.fill (grid0.coords t) (fun _ => (0 : EReal)) (iblk m c 2 t)
/-- The output's staging contents after the body at point `t`: the specification's block on the columns inside the
    array, zero past them (a filler nothing reads). -/
def oleft (c : Dev nD) (t : Fin cfg0.N) : S32x128.Idx → Elt Ideal .f32 :=
  win0_3.fill (grid0.coords t) (fun _ => (0 : EReal)) ((win0_3.blk t).view.read (Elt Ideal) (Gout m c))

/-! ## The proof data -/

/-- After the body at point `t`: the two resident inputs' buffers hold their (whole-array) blocks; the weight's
    buffer holds its block on the rows inside the array; the output's buffer holds the specification's block on the
    columns inside the array. Past the arrays' ends nothing is claimed (the filler is zero, and nothing reads it). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wleft m c t
    | ⟨3, _⟩ => oleft m c t
  Φ _ := Pipeline.ΦA spec0 c
  q _ := fullShare
  owed _ := 0

/-- The two resident inputs are found at their blocks at every point (fetched at the first only, never moved). -/
theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
/-- The weight's buffer is found just fetched: its block on the rows inside the array, `d` elsewhere. -/
theorem before_2 (c : Dev nD) (t : Fin cfg0.N) (d) :
    (dats m 0 c).before 2 t d = win0_2.fill (grid0.coords t) d (iblk m c 2 t) := by
  unfold Dat.before; rw [if_pos (fetch0_2 t)]; rfl

/-! ## The schedule's arithmetic, decided over the 37 points -/

/-- The block indices (the resident inputs sit at block (0,0); the weight at (t,0); the output at (0,t)) and the
    cut extents: the weight's rows and the output's columns inside the array number the same, min 128 (4624 − 128 t). -/
theorem sched : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_2.xsize (grid0.coords t) (0 : Fin 2) = min 128 (4624 - t.val * 128)
    ∧ win0_2.xsize (grid0.coords t) (1 : Fin 2) = 18496
    ∧ win0_3.xsize (grid0.coords t) (0 : Fin 2) = 32
    ∧ win0_3.xsize (grid0.coords t) (1 : Fin 2) = min 128 (4624 - t.val * 128) :=
  (by decide +kernel : ∀ t : Fin grid0.N, _)

/-! ## The tile at a written position -/

/-- At a position `j` of the output block inside the array, the tile the body computes from the resident blocks and
    the weight's buffer — its block on the fetched rows, ANY `d` on the others — is the specification there. -/
theorem tile_eq (c : Dev nD) (t : Fin cfg0.N) (d : S128x18496.Idx → EReal) (j : (win0_3.xblock (grid0.coords t)).Idx) :
    k0_pay1 (F := Ideal) (iblk m c 0 t) (iblk m c 1 t) (win0_2.fill (grid0.coords t) d (iblk m c 2 t)) (win0_3.xinj (grid0.coords t) j)
      = (win0_3.blk t).view.read (Elt Ideal) (Gout m c) j := by
  obtain ⟨a00, a01, a10, a11, a20, a21, a30, a31, x20, x21, x30, x31⟩ := sched t
  refine (pay_apply _ _ _ _).trans ?_
  rw [read_out]
  unfold Gout G
  refine Finset.sum_congr rfl fun k _ => ?_
  have hj0 : (j 0).val < win0_3.xsize (grid0.coords t) (0 : Fin 2) := (j 0).isLt
  have hj1 : (j 1).val < win0_3.xsize (grid0.coords t) (1 : Fin 2) := (j 1).isLt
  have hk : k.val < 18496 := k.isLt
  -- the resident inputs: block (0,0) is the whole array
  have e0 : ((cfg0.win 0).blk t).view.emb (lrow (win0_3.xinj (grid0.coords t) j) k) = xrow ((win0_3.blk t).view.emb j) k := by
    funext a; apply Fin.ext
    match a with
    | ⟨0, _⟩ => show win0_0.index t (0 : Fin 2) * 32 + 1 * (j 0).val = win0_3.index t (0 : Fin 2) * 32 + 1 * (j 0).val; omega
    | ⟨1, _⟩ => show win0_0.index t (1 : Fin 2) * 18496 + 1 * k.val = k.val; omega
  have h0 : iblk m c 0 t (lrow (win0_3.xinj (grid0.coords t) j) k) = V m c main_arg0 (xrow ((win0_3.blk t).view.emb j) k) :=
    congrArg (V m c main_arg0) e0
  have e1 : ((cfg0.win 1).blk t).view.emb (lrow (win0_3.xinj (grid0.coords t) j) k) = xrow ((win0_3.blk t).view.emb j) k := by
    funext a; apply Fin.ext
    match a with
    | ⟨0, _⟩ => show win0_1.index t (0 : Fin 2) * 32 + 1 * (j 0).val = win0_3.index t (0 : Fin 2) * 32 + 1 * (j 0).val; omega
    | ⟨1, _⟩ => show win0_1.index t (1 : Fin 2) * 18496 + 1 * k.val = k.val; omega
  have h1 : iblk m c 1 t (lrow (win0_3.xinj (grid0.coords t) j) k) = V m c main_arg2 (xrow ((win0_3.blk t).view.emb j) k) :=
    congrArg (V m c main_arg2) e1
  -- the weight: row n of the buffer was fetched, since column n is written back
  have hmv : win0_2.moved (grid0.coords t) (rrow (win0_3.xinj (grid0.coords t) j) k) = true :=
    (win0_2.moved_iff _ _).mpr fun a => by
      match a with
      | ⟨0, _⟩ => show (j 1).val < win0_2.xsize (grid0.coords t) (0 : Fin 2); omega
      | ⟨1, _⟩ => show k.val < win0_2.xsize (grid0.coords t) (1 : Fin 2); omega
  have h2 : win0_2.fill (grid0.coords t) d (iblk m c 2 t) (rrow (win0_3.xinj (grid0.coords t) j) k)
      = V m c main_arg1 (wrow ((win0_3.blk t).view.emb j) k) := by
    unfold Window.fill; rw [dif_pos hmv]
    have e2 : ∀ y : (win0_2.xblock (grid0.coords t)).Idx, (y 0).val = (j 1).val → (y 1).val = k.val →
        ((cfg0.win 2).blk t).view.emb y = wrow ((win0_3.blk t).view.emb j) k := by
      intro y hy0 hy1
      funext a; apply Fin.ext
      match a with
      | ⟨0, _⟩ => show win0_2.index t (0 : Fin 2) * 128 + 1 * (y 0).val = win0_3.index t (1 : Fin 2) * 128 + 1 * (j 1).val; omega
      | ⟨1, _⟩ => show win0_2.index t (1 : Fin 2) * 18496 + 1 * (y 1).val = k.val; omega
    exact congrArg (V m c main_arg1) (e2 _ rfl rfl)
  rw [h0, h1, h2]

/-! ## The body obligation -/

/-- Any contents `P` of the output's staging buffer that agree with the specification's block on the columns inside
    the array are contents the obligation accepts for a window cut at the array's end: `P` is the contents `oleft`
    names, refilled past the cut with `P`'s own tail. -/
theorem leave_out (c : Dev nD) (t : Fin cfg0.N) (s : Fin 2) (P : S32x128.Idx → Elt Ideal .f32)
    (hP : win0_3.cut (grid0.coords t) P = (win0_3.blk t).view.read (Elt Ideal) (Gout m c)) :
    owns (c : Thread nD τ) (stage0_3 s) fullShare P
      ⊢ (iprop(∃ d, owns (c : Thread nD τ) (stage0_3 s) fullShare
          (win0_3.fill (grid0.coords t) d (win0_3.cut (grid0.coords t) (oleft m c t)))) : sProp 𝕄) := by
  have ho : win0_3.cut (grid0.coords t) (oleft m c t) = (win0_3.blk t).view.read (Elt Ideal) (Gout m c) :=
    win0_3.cut_fill _ _ _
  iintro H
  iexists P
  rw [ho, ← hP, win0_3.fill_cut]
  iexact H

/-- At every point: the resident inputs come and go at their blocks; the weight's buffer comes just fetched and goes
    unchanged; the output's buffer comes at anything and goes at the tile, which on the columns written back is the
    specification's block (`tile_eq`) — all the obligation asks of a window cut at the array's end. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_body (F := Ideal) c Set.univ (grid0.coords t) (cfg0.slots t 0) (cfg0.slots t 1) (cfg0.slots t 2) (cfg0.slots t 3)
    (iblk m c 0 t) (iblk m c 1 t) (win0_2.fill (grid0.coords t) d2 (iblk m c 2 t)) ((dats m 0 c).before 3 t d3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hc : win0_3.cut (grid0.coords t)
      (k0_pay1 (F := Ideal) (iblk m c 0 t) (iblk m c 1 t) (win0_2.fill (grid0.coords t) d2 (iblk m c 2 t)))
      = (win0_3.blk t).view.read (Elt Ideal) (Gout m c) := funext fun j => tile_eq m c t d2 j
  have hw : win0_2.cut (grid0.coords t) (wleft m c t) = iblk m c 2 t := win0_2.cut_fill _ _ _
  isplitl [H0]
  · iexact H0
  isplitl [H1]
  · iexact H1
  isplitl [H2]
  · iexists d2
    change _ ⊢ owns (c : Thread nD τ) (stage0_2 (cfg0.slots t 2)) fullShare
      (win0_2.fill (grid0.coords t) d2 (win0_2.cut (grid0.coords t) (wleft m c t)))
    rw [hw]; try iexact H2
  · iapply (leave_out m c t (cfg0.slots t 3) _ hc)
    iexact H3

/-! ## The launch -/

/-- Every weakly fair execution of @main terminates, nothing faulting, with every array of the kernel at what the
    proof data computes for it and every other buffer untouched. -/
theorem run_main : θ_run defs (onTc (τ := τ) (main (F := Ideal))) (s₀ m ρ) (Pipeline.FramePost cfgs (dats m) 0 (V m)) :=
  Pipeline.θ_run_frame cfgs (dats m) 0 launch0 defs₀ 𝒱₀ m ρ main
    (hbody := body_obligation m) (hshare := fun c => (dats m 0 c).share_full fun _ => rfl) (howed := fun _ _ => rfl)
    (V := V m) (hmain := hmain m 𝒱₀) (hA := fun _ _ => rfl) (hΦ := fun _ _ => rfl)

/-! ## The output array after the run -/

/-- What point `t` writes back is the specification read through the point's (cut) block. -/
theorem flushed_eq (c : Dev nD) (t : Fin cfg0.N) :
    (dats m 0 c).flushed 3 t = ((cfg0.win 3).blk t).view.read (Elt Ideal) (Gout m c) := by
  show win0_3.cut (grid0.coords t) (oleft m c t) = _
  exact win0_3.cut_fill _ _ _

/-- An index of the output is under point `t`'s block iff, on each axis, it is at or past the block's start and
    before the end of the block's part inside the array. -/
theorem mem_blk (t : Fin cfg0.N) (i : S32x4624.Idx) :
    i ∈ ((cfg0.win 3).blk t).view.set ↔ ∀ a : Fin 2, win0_3.index t a * S32x128.size a ≤ (i a).val
      ∧ (i a).val < win0_3.index t a * S32x128.size a + win0_3.xsize (grid0.coords t) a := by
  show i ∈ ((View.whole main_v0).slice (win0_3.rect t)).set ↔ _
  rw [View.set_slice_whole, Rect.mem_set_unit]
  exact Iff.rfl

/-- Column n of the output is written back by point n / 128 (below 37, as n < 4624). -/
theorem cover (i : S32x4624.Idx) : ∃ t : Fin cfg0.N, (cfg0.win 3).flush t = true ∧ i ∈ ((cfg0.win 3).blk t).view.set := by
  have hi0 : (i 0).val < 32 := (i 0).isLt
  have hi1 : (i 1).val < 4624 := (i 1).isLt
  have hN : cfg0.N = 37 := N_0
  refine ⟨⟨(i 1).val / 128, by omega⟩, flush0_3 _, ?_⟩
  rw [mem_blk]
  obtain ⟨a00, a01, a10, a11, a20, a21, a30, a31, x20, x21, x30, x31⟩ := sched ⟨(i 1).val / 128, by omega⟩
  intro a
  match a with
  | ⟨0, _⟩ =>
    show win0_3.index _ (0 : Fin 2) * 32 ≤ (i 0).val ∧ (i 0).val < win0_3.index _ (0 : Fin 2) * 32 + win0_3.xsize _ (0 : Fin 2)
    rw [a30, x30]; omega
  | ⟨1, _⟩ =>
    show win0_3.index _ (1 : Fin 2) * 128 ≤ (i 1).val ∧ (i 1).val < win0_3.index _ (1 : Fin 2) * 128 + win0_3.xsize _ (1 : Fin 2)
    rw [a31, x31]
    show (i 1).val / 128 * 128 ≤ (i 1).val ∧ (i 1).val < (i 1).val / 128 * 128 + min 128 (4624 - (i 1).val / 128 * 128)
    omega

/-- The output array ends holding the specification of the three arguments. -/
theorem final (c : Dev nD) : (dats m 0 c).arrAt 3 cfg0.N = Gout m c :=
  (dats m 0 c).arrAt_eq_of_cover 3 (Gout m c) (fun t _ => flushed_eq m c t) cover

/-- The run re-posted: the result array at the specification, the three arguments unchanged. -/
theorem run : θ_run defs (onTc (τ := τ) (main (F := Ideal))) ⟨m, fun _ => 0, ρ⟩ fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans (V_main_arg0 m c)),
      ((h c).1 2).trans (((dats m 0 c).arrAt_in 2 rfl _).trans (V_main_arg1 m c)),
      ((h c).1 1).trans (((dats m 0 c).arrAt_in 1 rfl _).trans (V_main_arg2 m c))⟩) (run_main m ρ)

end Cert.KernelIdeal.Hand

end
-- ==== Proof.RefBridge.lean ====
/-
  The reference computes the specification.

  The reference multiplies the activations by the mask entry by entry, transposes the weight, and contracts the
  product's second axis against the transposed weight's first. Read at the output index (b, n), over the extended
  reals, that is Σ_k (x[b,k] · mask[b,k]) · wᵀ[k,n] = Σ_k (x[b,k] · mask[b,k]) · w[n,k]: the specification `G`
  of the kernel's run, term for term — the same products in the same order, so no law of the extended reals beyond
  reading the transpose is used, and no finiteness.
-/
import proofs.«106692_j53042846105941_1_alg».proof.Proof.IdealRun
import proofs.«106692_j53042846105941_1_alg».proof.Proof.Gen.ReferenceIdeal.Read

noncomputable section

namespace Cert.Bridge

open Idealize.ShloMosaic
open Cert.ReferenceIdeal Cert.ReferenceIdeal.Read
open Cert.KernelIdeal.Hand (G xrow wrow)

/-- The reference's result, as a function of its three arguments, is `G` of the activations, the mask and the
    weight (the reference's third argument is the mask). -/
theorem ref_eq (x0 : (⟨S32x18496, .f32⟩ : BufTy).Contents (Elt Ideal)) (x1 : (⟨S4624x18496, .f32⟩ : BufTy).Contents (Elt Ideal))
    (x2 : (⟨S32x18496, .f32⟩ : BufTy).Contents (Elt Ideal)) :
    val_main_v2 (F := Ideal) x0 x1 x2 = G x0 x2 x1 := by
  funext i
  rw [val_main_v2_apply]
  unfold G
  refine Finset.sum_congr rfl fun k _ => ?_
  rw [val_main_v0_apply, val_main_v1_apply]
  have e1 : idx_main_v1 (ridx_main_v2 i k) = wrow i k := funext fun a => Fin.ext (by
    match a with
    | ⟨0, _⟩ => rfl
    | ⟨1, _⟩ => rfl)
  rw [e1]
  rfl

end Cert.Bridge

end
-- ==== Proof.lean ====
/-
  The certificate: a pooled-convolution layer written as one matrix product, out = (x ∘ mask) · wᵀ with
  x, mask : 32 × 18496, w : 4624 × 18496, computed by a kernel that keeps x and mask resident, streams w through
  VMEM 128 rows at a time over a grid of 37 points, and writes the output 128 columns at a time — against the plain
  product.

  37 · 128 = 4736 > 4624: the last streamed block of w and the last written block of the output hang over the
  arrays' ends by 112 rows (columns). The transfers are cut there; the staging rows past the end hold words
  nothing names; the body multiplies them anyway, and only the 16 columns inside the output are written back.

  * The kernel as printed (word level): it runs to the end, faults nowhere and leaves its arguments alone
    (Proof/BitsBody.lean, Proof/BitsFrame.lean). Nothing is claimed of what it computes.
  * The idealized kernel (extended reals): the same, and the output array ends at
        G(x, mask, w)[b, n] = Σ_k (x[b,k] · mask[b,k]) · w[n,k]
    — each written column n reads row n of the streamed block only, and column n is written exactly when row n was
    fetched, so the unnamed tail never reaches the array (Proof/IdealBody.lean, IdealPay.lean, IdealRun.lean).
  * The reference (extended reals) computes the same sums in the same order (Proof/RefBridge.lean), and runs with
    its arguments unchanged (its generated run).
  * The idealization rewrote no operation, so there is nothing to preserve.
-/
import proofs.«106692_j53042846105941_1_alg».proof.Defs
import proofs.«106692_j53042846105941_1_alg».proof.Proof.Gen.Kernel
import proofs.«106692_j53042846105941_1_alg».proof.Proof.Gen.KernelIdeal
import proofs.«106692_j53042846105941_1_alg».proof.Proof.Gen.ReferenceIdeal
import proofs.«106692_j53042846105941_1_alg».proof.Proof.Gen.Pre_finite_inputs
import proofs.«106692_j53042846105941_1_alg».proof.Proof.Gen.ReferenceIdeal.Run
import proofs.«106692_j53042846105941_1_alg».proof.Proof.Gen.ReferenceIdeal.Read
import proofs.«106692_j53042846105941_1_alg».proof.Proof.BitsFrame
import proofs.«106692_j53042846105941_1_alg».proof.Proof.IdealRun
import proofs.«106692_j53042846105941_1_alg».proof.Proof.RefBridge
import Idealize.ShloMosaic.Adequacy
import Idealize.ShloMosaic.Init

noncomputable section

namespace Cert.Proof

open Idealize.ShloMosaic Idealize.SL.Sem

/-- The printed kernel runs, faults nowhere, and leaves its arguments as they were. -/
theorem frame_k : Cert.frame_Kernel := fun m ρ _ => Cert.Kernel.Hand.frame (F := Bits) m ρ

/-- So does the idealized kernel: its run, the result dropped. -/
theorem frame_ki : Cert.frame_KernelIdeal := fun m ρ _ =>
  (θ_run Cert.KernelIdeal.defs _ _).mono (fun _ h c => (h c).2) (Cert.KernelIdeal.Hand.run m ρ)

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the three arguments, both programs end with the result at
    `G` of the arguments: the kernel by its run, the reference because its composed term is `G`. -/
theorem algebraic : Cert.algebraic_KernelIdeal_ReferenceIdeal := by
  intro m ρ m' ρ' _ hagree
  refine ⟨fun c => Cert.KernelIdeal.Hand.Gout m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v2_eq, Cert.Bridge.ref_eq]
  unfold Cert.KernelIdeal.Hand.Gout
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
